-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x128 : Shape := ⟨3, ![2048, 16, 128]⟩
abbrev S512x128 : Shape := ⟨2, ![512, 128]⟩
abbrev S512 : Shape := ⟨1, ![512]⟩
abbrev S128x512 : Shape := ⟨2, ![128, 512]⟩
abbrev S128 : Shape := ⟨1, ![128]⟩
abbrev S_ : Shape := ⟨0, ![]⟩

class Facts : Prop where
  bcast_S_S2048x16x128 : S_.BroadcastsInDim S2048x16x128 (![] : Fin 0 → Fin S2048x16x128.rank)
  reducesTo_S2048x16x128_S_d0_1_2 : S2048x16x128.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2048x16x128 .f32) (main_arg1 : FVec F S512x128 .f32) (main_arg2 : FVec F S512 .f32) (main_arg3 : FVec F S128x512 .f32) (main_arg4 : FVec F S128 .f32) : IVec S_ 1 :=
  let main_v0 : FVec F S2048x16x128 .f32 := Host.absf main_arg0
  let main_cst : FVec F S_ .f32 := constant S_ .f32 0x7F800000#32
  let main_v1 : FVec F S2048x16x128 .f32 := broadcastInDim S2048x16x128 ![] bcast_S_S2048x16x128 main_cst
  let main_v2 : IVec S2048x16x128 1 := cmpf .olt main_v0 main_v1
  let main_c : IVec S_ 1 := constantI S_ 1 1#1
  let main_v3 : IVec S_ 1 := (fun x v => Host.reduce IntOp.andi x v reducesTo_S2048x16x128_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_v13 main_v16
-- ==== Kernel.lean ====
abbrev S2048x16x128 : Shape := ⟨3, ![2048, 16, 128]⟩
abbrev S512x128 : Shape := ⟨2, ![512, 128]⟩
abbrev S512 : Shape := ⟨1, ![512]⟩
abbrev S128x512 : Shape := ⟨2, ![128, 512]⟩
abbrev S128 : Shape := ⟨1, ![128]⟩
abbrev S1x512 : Shape := ⟨2, ![1, 512]⟩
abbrev S1x128 : Shape := ⟨2, ![1, 128]⟩
abbrev S128x16x128 : Shape := ⟨3, ![128, 16, 128]⟩
abbrev S2048x512 : Shape := ⟨2, ![2048, 512]⟩
abbrev S128x1x128 : Shape := ⟨3, ![128, 1, 128]⟩
abbrev S2048x128 : Shape := ⟨2, ![2048, 128]⟩

abbrev nBuf : Space → Nat
  | .hbm => 12
  | .vmem => 9
  | .smem => 0
  | _ => 0

abbrev bufTy : (tb : Table) → Fin (tcTables nBuf tb) → BufTy
  | .hbm, ⟨0, _⟩ => ⟨S2048x16x128, .f32⟩
  | .hbm, ⟨1, _⟩ => ⟨S512x128, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S1x512, .f32⟩
  | .hbm, ⟨6, _⟩ => ⟨S1x128, .f32⟩
  | .hbm, ⟨7, _⟩ => ⟨S128x512, .f32⟩
  | .hbm, ⟨8, _⟩ => ⟨S128x512, .bf16⟩
  | .hbm, ⟨9, _⟩ => ⟨S512x128, .f32⟩
  | .hbm, ⟨10, _⟩ => ⟨S512x128, .bf16⟩
  | .hbm, ⟨11, _⟩ => ⟨S2048x16x128, .f32⟩
  | .local _ .vmem, ⟨0, _⟩ => ⟨S128x16x128, .f32⟩
  | .local _ .vmem, ⟨1, _⟩ => ⟨S128x16x128, .f32⟩
  | .local _ .vmem, ⟨2, _⟩ => ⟨S128x512, .bf16⟩
  | .local _ .vmem, ⟨3, _⟩ => ⟨S1x512, .f32⟩
  | .local _ .vmem, ⟨4, _⟩ => ⟨S512x128, .bf16⟩
  | .local _ .vmem, ⟨5, _⟩ => ⟨S1x128, .f32⟩
  | .local _ .vmem, ⟨6, _⟩ => ⟨S128x16x128, .f32⟩
  | .local _ .vmem, ⟨7, _⟩ => ⟨S128x16x128, .f32⟩
  | .local _ .vmem, ⟨8, _⟩ => ⟨S2048x512, .f32⟩
  | _, _ => ⟨S2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512_S1x512 : S512.ShapeCasts S1x512
  shapeCasts_S128_S1x128 : S128.ShapeCasts S1x128
  transposes_S512x128_S128x512_1_0 : S512x128.Transposes [1, 0] S128x512
  bitsLt_bf16_f32 : FTy.bits .bf16 < FTy.bits .f32
  transposes_S128x512_S512x128_1_0 : S128x512.Transposes [1, 0] S512x128
  inb_S128x16x128_S128x16x128_0_0_0 : ∀ a, (![0, 0, 0] : Fin 3 → Nat) a + S128x16x128.size a ≤ S128x16x128.size a
  h_S128x16x128 : 0 < S128x16x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  slices_S128x16x128_o0_0_0_S128x1x128 : S128x16x128.Slices ![0, 0, 0] S128x1x128
  broadcasts_S128x1x128_S128x16x128 : S128x1x128.Broadcasts S128x16x128
  shapeCasts_S128x16x128_S2048x128 : S128x16x128.ShapeCasts S2048x128
  broadcasts_S1x512_S2048x512 : S1x512.Broadcasts S2048x512
  slices_S128x16x128_o0_1_0_S128x1x128 : S128x16x128.Slices ![0, 1, 0] S128x1x128
  slices_S128x16x128_o0_2_0_S128x1x128 : S128x16x128.Slices ![0, 2, 0] S128x1x128
  slices_S128x16x128_o0_3_0_S128x1x128 : S128x16x128.Slices ![0, 3, 0] S128x1x128
  slices_S128x16x128_o0_4_0_S128x1x128 : S128x16x128.Slices ![0, 4, 0] S128x1x128
  slices_S128x16x128_o0_5_0_S128x1x128 : S128x16x128.Slices ![0, 5, 0] S128x1x128
  slices_S128x16x128_o0_6_0_S128x1x128 : S128x16x128.Slices ![0, 6, 0] S128x1x128
  slices_S128x16x128_o0_7_0_S128x1x128 : S128x16x128.Slices ![0, 7, 0] S128x1x128
  slices_S128x16x128_o0_8_0_S128x1x128 : S128x16x128.Slices ![0, 8, 0] S128x1x128
  slices_S128x16x128_o0_9_0_S128x1x128 : S128x16x128.Slices ![0, 9, 0] S128x1x128
  slices_S128x16x128_o0_10_0_S128x1x128 : S128x16x128.Slices ![0, 10, 0] S128x1x128
  slices_S128x16x128_o0_11_0_S128x1x128 : S128x16x128.Slices ![0, 11, 0] S128x1x128
  slices_S128x16x128_o0_12_0_S128x1x128 : S128x16x128.Slices ![0, 12, 0] S128x1x128
  slices_S128x16x128_o0_13_0_S128x1x128 : S128x16x128.Slices ![0, 13, 0] S128x1x128
  slices_S128x16x128_o0_14_0_S128x1x128 : S128x16x128.Slices ![0, 14, 0] S128x1x128
  slices_S128x16x128_o0_15_0_S128x1x128 : S128x16x128.Slices ![0, 15, 0] S128x1x128
  broadcasts_S1x128_S2048x128 : S1x128.Broadcasts S2048x128
  shapeCasts_S2048x128_S128x16x128 : S2048x128.ShapeCasts S128x16x128
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x128.size a ≤ S2048x16x128.size a
  hwx0_0 : ∀ i : grid0.Coords, EltTy.bits .f32 = 32 ∨ (Rect.block (s := S2048x16x128) S128x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x16x128.size a ≤ S2048x16x128.size a
  hwx0_5 : ∀ i : grid0.Coords, EltTy.bits .f32 = 32 ∨ (Rect.block (s := S2048x16x128) S128x16x128.size (cc0_transform_5 i) (hinb0_5 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x16x128 : Shape := ⟨3, ![2048, 16, 128]⟩
abbrev S512x128 : Shape := ⟨2, ![512, 128]⟩
abbrev S512 : Shape := ⟨1, ![512]⟩
abbrev S128x512 : Shape := ⟨2, ![128, 512]⟩
abbrev S128 : Shape := ⟨1, ![128]⟩
abbrev S2048x16x1x128 : Shape := ⟨4, ![2048, 16, 1, 128]⟩
abbrev S2048x1x16x128 : Shape := ⟨4, ![2048, 1, 16, 128]⟩
abbrev S2048x16x16x128 : Shape := ⟨4, ![2048, 16, 16, 128]⟩
abbrev S2048x16x16x512 : Shape := ⟨4, ![2048, 16, 16, 512]⟩
abbrev S1x1x1x512 : Shape := ⟨4, ![1, 1, 1, 512]⟩
abbrev S_ : Shape := ⟨0, ![]⟩
abbrev S1x1x1x128 : Shape := ⟨4, ![1, 1, 1, 128]⟩

abbrev nBuf : Space → Nat
  | .hbm => 23
  | .vmem => 0
  | .smem => 0
  | _ => 0

abbrev bufTy : (tb : Table) → Fin (tcTables nBuf tb) → BufTy
  | .hbm, ⟨0, _⟩ => ⟨S2048x16x128, .f32⟩
  | .hbm, ⟨1, _⟩ => ⟨S512x128, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S2048x16x1x128, .f32⟩
  | .hbm, ⟨6, _⟩ => ⟨S2048x1x16x128, .f32⟩
  | .hbm, ⟨7, _⟩ => ⟨S2048x16x16x128, .f32⟩
  | .hbm, ⟨8, _⟩ => ⟨S2048x16x16x128, .f32⟩
  | .hbm, ⟨9, _⟩ => ⟨S2048x16x16x128, .f32⟩
  | .hbm, ⟨10, _⟩ => ⟨S2048x16x16x512, .f32⟩
  | .hbm, ⟨11, _⟩ => ⟨S1x1x1x512, .f32⟩
  | .hbm, ⟨12, _⟩ => ⟨S2048x16x16x512, .f32⟩
  | .hbm, ⟨13, _⟩ => ⟨S2048x16x16x512, .f32⟩
  | .hbm, ⟨14, _⟩ => ⟨S_, .f32⟩
  | .hbm, ⟨15, _⟩ => ⟨S2048x16x16x512, .f32⟩
  | .hbm, ⟨16, _⟩ => ⟨S2048x16x16x512, .f32⟩
  | .hbm, ⟨17, _⟩ => ⟨S2048x16x16x128, .f32⟩
  | .hbm, ⟨18, _⟩ => ⟨S1x1x1x128, .f32⟩
  | .hbm, ⟨19, _⟩ => ⟨S2048x16x16x128, .f32⟩
  | .hbm, ⟨20, _⟩ => ⟨S2048x16x16x128, .f32⟩
  | .hbm, ⟨21, _⟩ => ⟨S_, .f32⟩
  | .hbm, ⟨22, _⟩ => ⟨S2048x16x128, .f32⟩
  | _, _ => ⟨S2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S2048x16x128_S2048x16x1x128_0_1_3 : S2048x16x128.BroadcastsInDim S2048x16x1x128 (![0, 1, 3] : Fin 3 → Fin S2048x16x1x128.rank)
  bcast_S2048x16x128_S2048x1x16x128_0_2_3 : S2048x16x128.BroadcastsInDim S2048x1x16x128 (![0, 2, 3] : Fin 3 → Fin S2048x1x16x128.rank)
  bcast_S2048x16x1x128_S2048x16x16x128_0_1_2_3 : S2048x16x1x128.BroadcastsInDim S2048x16x16x128 (![0, 1, 2, 3] : Fin 4 → Fin S2048x16x16x128.rank)
  bcast_S2048x1x16x128_S2048x16x16x128_0_1_2_3 : S2048x1x16x128.BroadcastsInDim S2048x16x16x128 (![0, 1, 2, 3] : Fin 4 → Fin S2048x16x16x128.rank)
  bcast_S512_S1x1x1x512_3 : S512.BroadcastsInDim S1x1x1x512 (![3] : Fin 1 → Fin S1x1x1x512.rank)
  bcast_S1x1x1x512_S2048x16x16x512_0_1_2_3 : S1x1x1x512.BroadcastsInDim S2048x16x16x512 (![0, 1, 2, 3] : Fin 4 → Fin S2048x16x16x512.rank)
  bcast_S_S2048x16x16x512 : S_.BroadcastsInDim S2048x16x16x512 (![] : Fin 0 → Fin S2048x16x16x512.rank)
  bcast_S128_S1x1x1x128_3 : S128.BroadcastsInDim S1x1x1x128 (![3] : Fin 1 → Fin S1x1x1x128.rank)
  bcast_S1x1x1x128_S2048x16x16x128_0_1_2_3 : S1x1x1x128.BroadcastsInDim S2048x16x16x128 (![0, 1, 2, 3] : Fin 4 → Fin S2048x16x16x128.rank)
  reducesTo_S2048x16x16x128_S2048x16x128_d1 : S2048x16x16x128.ReducesTo [1] S2048x16x128
  h_S_ : 0 < S_.numel
  dot_S2048x16x16x128_S512x128_S2048x16x16x512_3_1_012_0_n_n_wf : DotDims.WF S2048x16x16x128 S512x128 S2048x16x16x512 [3] [1] [0, 1, 2] [0] [] []
  dot_S2048x16x16x512_S128x512_S2048x16x16x128_3_1_012_0_n_n_wf : DotDims.WF S2048x16x16x512 S128x512 S2048x16x16x128 [3] [1] [0, 1, 2] [0] [] []

variable [Facts₀]

def dot_S2048x16x16x128_S512x128_S2048x16x16x512_3_1_012_0_n_n : DotDims S2048x16x16x128 S512x128 S2048x16x16x512 where
  lhsContracting := [3]
  rhsContracting := [1]
  lhsNonContracting := [0, 1, 2]
  rhsNonContracting := [0]
  lhsBatch := []
  rhsBatch := []
  wf := dot_S2048x16x16x128_S512x128_S2048x16x16x512_3_1_012_0_n_n_wf
def dot_S2048x16x16x512_S128x512_S2048x16x16x128_3_1_012_0_n_n : DotDims S2048x16x16x512 S128x512 S2048x16x16x128 where
  lhsContracting := [3]
  rhsContracting := [1]
  lhsNonContracting := [0, 1, 2]
  rhsNonContracting := [0]
  lhsBatch := []
  rhsBatch := []
  wf := dot_S2048x16x16x512_S128x512_S2048x16x16x128_3_1_012_0_n_n_wf

class Facts : Prop extends Facts₀ where

variable [Facts]
-- ==== Proof.LibScratchReload.lean ====
/-
  Reading a buffer back after a store that covered all of it.

  A kernel that keeps an accumulator in a scratch buffer stores the whole buffer, loads the whole buffer back,
  stores it again, and so on.  The contents after a sequence of stores are described by the list of pieces
  written, the last store first.  When the LAST store went through the rectangle that is the whole shape at zero
  offsets, a load through that same rectangle reads exactly that store's payload: the earlier stores, whatever
  they were, lie underneath it.
-/
import Idealize.ShloMosaic.Lib.Pipeline.Value

noncomputable section

namespace Cert.LibScratchReload

open Idealize.ShloMosaic

variable {Val : EltTy → Type} {S : Shape} {e : EltTy}

/-- A load of the whole buffer after a store of the whole buffer reads the stored payload, whatever was stored
    before. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

end Cert.LibScratchReload

end
-- ==== Proof.KernelBody.lean ====
/-
  What the kernel's body leaves in its output block, as one pure term of the blocks it loads.

  At every grid point the body zeroes a [2048, 512] accumulator, then for each of the sixteen attribute rows
  `o` adds to it the hidden activations of the pairs (row `o`, every row) of the point's 128 batch entries —
  the row `o` of the embeddings block broadcast against the block, multiplied entrywise, flattened to
  [2048, 128], multiplied by the first layer's weights, the bias added, the maximum with zero taken —,
  and finally applies the second layer to the accumulator and stores the result.  The sixteen steps are the
  same term at sixteen slice offsets (`hiddenOf`); the run reads the accumulator back after each store of
  the whole buffer, so what the output block ends with is the second layer applied to the running sum
  (`accumulated`).  Stated for every reading of the floats.
-/
import proofs.«123258_j9079560863790_2_alg».proof.Proof.Gen.KernelIdeal.Value
import proofs.«123258_j9079560863790_2_alg».proof.Proof.LibScratchReload

set_option maxRecDepth 16384

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The hidden activations of the pairs whose first member is attribute row `o`: for the embeddings block `x`,
    first-layer weights `w1` (already transposed) and bias `b1`, the [2048, 512] array
    `max (flatten (x[:, o, :] · x) · w1 + b1, 0)`. -/
def hiddenOf (o : Nat) (hs : S128x16x128.Slices ![0, o, 0] S128x1x128) (x : Vec F S128x16x128 .f32)
    (w1 : FVec F S128x512 .bf16) (b1 : FVec F S1x512 .f32) : FVec F S2048x512 .f32 :=
  maximumf
    (addf
      (matmul dot_S2048x128_S128x512_S2048x512_1_0_0_1_n_n none
        (truncf .bf16 (shapeCast S2048x128 (mulf (broadcastTo S128x16x128 (extractStridedSlice S128x1x128 ![0, o, 0] x hs)
          broadcasts_S128x1x128_S128x16x128) x) shapeCasts_S128x16x128_S2048x128) bitsLt_bf16_f32)
        w1 (constant S2048x512 .f32 0x00000000#32))
      (broadcastTo S2048x512 b1 broadcasts_S1x512_S2048x512))
    (broadcast S2048x512 (Scalar.ofBits .f32 0x00000000#32))

/-- The accumulator as the body first stores it: all zeros. -/
def zeroAcc : FVec F S2048x512 .f32 := broadcast S2048x512 (Scalar.ofBits .f32 0x00000000#32)

/-- The accumulator after the sixteen steps: the running sum, from zero, of the hidden activations at slice
    offsets 0, …, 15, in that order. -/
def accumulated (x : Vec F S128x16x128 .f32) (w1 : FVec F S128x512 .bf16) (b1 : FVec F S1x512 .f32) :
    FVec F S2048x512 .f32 :=
  addf (addf (addf (addf (addf (addf (addf (addf (addf (addf (addf (addf (addf (addf (addf (addf (zeroAcc) (hiddenOf 0 slices_S128x16x128_o0_0_0_S128x1x128 x w1 b1)) (hiddenOf 1 slices_S128x16x128_o0_1_0_S128x1x128 x w1 b1)) (hiddenOf 2 slices_S128x16x128_o0_2_0_S128x1x128 x w1 b1)) (hiddenOf 3 slices_S128x16x128_o0_3_0_S128x1x128 x w1 b1)) (hiddenOf 4 slices_S128x16x128_o0_4_0_S128x1x128 x w1 b1)) (hiddenOf 5 slices_S128x16x128_o0_5_0_S128x1x128 x w1 b1)) (hiddenOf 6 slices_S128x16x128_o0_6_0_S128x1x128 x w1 b1)) (hiddenOf 7 slices_S128x16x128_o0_7_0_S128x1x128 x w1 b1)) (hiddenOf 8 slices_S128x16x128_o0_8_0_S128x1x128 x w1 b1)) (hiddenOf 9 slices_S128x16x128_o0_9_0_S128x1x128 x w1 b1)) (hiddenOf 10 slices_S128x16x128_o0_10_0_S128x1x128 x w1 b1)) (hiddenOf 11 slices_S128x16x128_o0_11_0_S128x1x128 x w1 b1)) (hiddenOf 12 slices_S128x16x128_o0_12_0_S128x1x128 x w1 b1)) (hiddenOf 13 slices_S128x16x128_o0_13_0_S128x1x128 x w1 b1)) (hiddenOf 14 slices_S128x16x128_o0_14_0_S128x1x128 x w1 b1)) (hiddenOf 15 slices_S128x16x128_o0_15_0_S128x1x128 x w1 b1)

/-- The body's output block: the second layer (`k0_pay2`: the product with the second layer's weights, sixteen
    times its bias added, the result laid out as [128, 16, 128]) applied to the accumulated hidden activations
    of the loaded blocks. -/
theorem out_eq (c : Dev nD) (i : grid0.Coords) (a1 : Memref sig .tc .vmem S128x16x128 .f32) (h1 : a1.IsWhole) (a2 : Memref sig .tc .vmem S128x512 .bf16) (h2 : a2.IsWhole) (a3 : Memref sig .tc .vmem S1x512 .f32) (h3 : a3.IsWhole) (a4 : Memref sig .tc .vmem S512x128 .bf16) (h4 : a4.IsWhole) (a5 : Memref sig .tc .vmem S1x128 .f32) (h5 : a5.IsWhole) (a6 : Memref sig .tc .vmem S128x16x128 .f32) (h6 : a6.IsWhole) (a7 : Memref sig .tc .vmem S2048x512 .f32) (h7 : a7.IsWhole)
    (x0 : Vec F S128x16x128 .f32) (x1 : Vec F S128x512 .bf16) (x2 : Vec F S1x512 .f32) (x3 : Vec F S512x128 .bf16) (x4 : Vec F S1x128 .f32) :
    out0_A_5 c i a1 h1 a2 h2 a3 h3 a4 h4 a5 h5 a6 h6 a7 h7 x0 x1 x2 x3 x4
      = k0_pay2 (k0_pay4 x3) (k0_pay6 x4) (accumulated x0 (k0_pay3 x1) (k0_pay5 x2)) := by
  unfold out0_A_5
  rw [View.read_writes_eq_canon _ _ _ (cover0_A_5 c i a1 h1 a2 h2 a3 h3 a4 h4 a5 h5 a6 h6 a7 h7 x0 x1 x2 x3 x4)]
  unfold kernelRun0_A
  dsimp only
  sl_unfold_words
  rw [View.canon_unit_zero hz3]
  simp only [View.readAt_eq_ld, h1.read_unread, h2.read_unread, h3.read_unread, h4.read_unread, h5.read_unread,
    View.ld_unit_zero (S := S128x16x128) hz3, View.ld_unit_zero (S := S128x512) hz2, View.ld_unit_zero (S := S1x512) hz2,
    View.ld_unit_zero (S := S512x128) hz2, View.ld_unit_zero (S := S1x128) hz2,
    Cert.LibScratchReload.readCov_cons_unit_zero (S := S2048x512) _ hz2]
  simp only [k0_pay1, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28,
    accumulated, hiddenOf, zeroAcc, shapeCast_self]

end Cert.KernelIdeal.Body

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.LibNonnegDistrib.lean ====
/-
  Distributing a product over a sum of nonnegative extended reals, and the law built on it.

  On the extended reals multiplication does not distribute over addition in general (the sum `⊤ + ⊥`
  is the obstacle), but it does when the summands are NONNEGATIVE: `(a + b) · c = a · c + b · c` for
  `0 ≤ a`, `0 ≤ b` and every `c`.  Three consequences are stated here over arbitrary finite index sets:

  * `(Σ_i r i) · w = Σ_i r i · w` when every `r i ≥ 0`;
  * `n · b = Σ_{i < n} b` for a natural number `n` and EVERY extended real `b` (the summands `n` and `1`
    of `n + 1` are nonnegative);
  * for a two-layer perceptron summed over `A` inputs — hidden activations `r i h ≥ 0`, second-layer
    weights `w h`, bias `b` — applying the second layer to the SUMMED activations and adding `A · b`
    equals summing the second layer's outputs:
    `Σ_h (Σ_i r i h) · w h + A · b = Σ_i (Σ_h r i h · w h + b)`.
-/
import Mathlib.Data.EReal.Operations
import Mathlib.Algebra.BigOperators.Fin
import Mathlib.Algebra.Order.BigOperators.Group.Finset

namespace Cert.LibNonnegDistrib

/-- A sum of nonnegative extended reals times any extended real is the sum of the products. -/
theorem sum_mul_of_nonneg {ι : Type*} (s : Finset ι) (r : ι → EReal) (hr : ∀ i, 0 ≤ r i) (w : EReal) :
    (∑ i ∈ s, r i) * w = ∑ i ∈ s, r i * w := by
  classical
  induction s using Finset.induction_on with
  | empty => simp
  | insert a s ha ih =>
    rw [Finset.sum_insert ha, Finset.sum_insert ha,
      EReal.right_distrib_of_nonneg (hr a) (Finset.sum_nonneg fun i _ => hr i), ih]

/-- `n` copies of an extended real add up to `n` times it, whatever it is (`⊤` and `⊥` included). -/
theorem natCast_mul_eq_sum (n : ℕ) (b : EReal) : ((n : ℝ) : EReal) * b = ∑ _i : Fin n, b := by
  induction n with
  | zero => simp
  | succ n ih =>
    rw [Fin.sum_univ_castSucc, ← ih, Nat.cast_succ, EReal.coe_add, EReal.coe_one,
      EReal.right_distrib_of_nonneg (EReal.coe_nonneg.mpr (Nat.cast_nonneg n)) zero_le_one, one_mul]

/-- The second layer applied to the summed hidden activations, plus `A` biases, is the sum over the
    `A` inputs of the second layer's outputs: the activations being nonnegative, each weight distributes
    over their sum; the two finite sums commute; and the `A` biases add up to `A · b`. -/
theorem layer_of_sum_eq_sum_of_layer {A H : ℕ} (r : Fin A → Fin H → EReal) (hr : ∀ i h, 0 ≤ r i h)
    (w : Fin H → EReal) (b : EReal) :
    (∑ h, (∑ i, r i h) * w h) + ((A : ℝ) : EReal) * b = ∑ i, ((∑ h, r i h * w h) + b) := by
  rw [Finset.sum_add_distrib, ← natCast_mul_eq_sum, Finset.sum_comm]
  congr 1
  exact Finset.sum_congr rfl fun h _ => sum_mul_of_nonneg _ _ (fun i => hr i h) _

end Cert.LibNonnegDistrib
-- ==== Proof.PairMlp.lean ====
/-
  The function both programs compute, in its two arrangements, and why they agree.

  For embeddings `X[b, a, k]` (2048 batch entries, 16 attribute rows, 128 features), a first layer `W1[h, k]`,
  `B1[h]` (512 hidden units) and a second layer `W2[d, h]`, `B2[d]`, the hidden activation of the pair of rows
  `(i, j)` of batch entry `b` at hidden unit `h` is

      hid b i j h = max (Σ_k (X[b,i,k] · X[b,j,k]) · W1[h,k] + B1[h], 0)  ≥ 0.

  The reference applies the second layer to every pair and sums over the first row `i`:
      Σ_i (Σ_h hid b i j h · W2[d,h] + B2[d])                          (`sumOfOutputs`);
  the kernel sums the hidden activations over `i` first and applies the second layer once:
      Σ_h (Σ_i hid b i j h) · W2[d,h] + 16 · B2[d]                      (`viaSummedHidden`).
  The two are equal on ALL extended reals, infinite inputs included: the activations are nonnegative, so each
  weight distributes over their sum, and sixteen copies of `B2[d]` add up to `16 · B2[d]` whatever `B2[d]` is.
-/
import Idealize.ShloMosaic.Lib.ValueIdx
import Idealize.ShloMosaic.PureOps.Ideal
import proofs.«123258_j9079560863790_2_alg».proof.Proof.LibNonnegDistrib

noncomputable section

namespace Cert.PairMlp

open Idealize.ShloMosaic Idealize.ShloMosaic.ValueIdx

/-- The hidden activation of the pair of attribute rows `(i, j)` of batch entry `b` at hidden unit `h`. -/
def hid (X : (⟨3, ![2048, 16, 128]⟩ : Shape).Idx → EReal) (W1 : (⟨2, ![512, 128]⟩ : Shape).Idx → EReal)
    (B1 : (⟨1, ![512]⟩ : Shape).Idx → EReal) (b : Fin 2048) (i j : Fin 16) (h : Fin 512) : EReal :=
  max ((∑ k : Fin 128, (X (ix3 b i k) * X (ix3 b j k)) * W1 (ix2 h k)) + B1 (ix1 h)) 0

/-- A maximum with zero is nonnegative. -/
theorem hid_nonneg (X : (⟨3, ![2048, 16, 128]⟩ : Shape).Idx → EReal) (W1 : (⟨2, ![512, 128]⟩ : Shape).Idx → EReal)
    (B1 : (⟨1, ![512]⟩ : Shape).Idx → EReal) (b : Fin 2048) (i j : Fin 16) (h : Fin 512) : 0 ≤ hid X W1 B1 b i j h :=
  le_max_right _ _

/-- The kernel's arrangement: the second layer applied to the hidden activations summed over the first row. -/
def viaSummedHidden (X : (⟨3, ![2048, 16, 128]⟩ : Shape).Idx → EReal) (W1 : (⟨2, ![512, 128]⟩ : Shape).Idx → EReal)
    (B1 : (⟨1, ![512]⟩ : Shape).Idx → EReal) (W2 : (⟨2, ![128, 512]⟩ : Shape).Idx → EReal)
    (B2 : (⟨1, ![128]⟩ : Shape).Idx → EReal) (b : Fin 2048) (j : Fin 16) (d : Fin 128) : EReal :=
  (∑ h : Fin 512, (∑ i : Fin 16, hid X W1 B1 b i j h) * W2 (ix2 d h)) + (((16 : ℕ) : ℝ) : EReal) * B2 (ix1 d)

/-- The reference's arrangement: the second layer's outputs summed over the first row. -/
def sumOfOutputs (X : (⟨3, ![2048, 16, 128]⟩ : Shape).Idx → EReal) (W1 : (⟨2, ![512, 128]⟩ : Shape).Idx → EReal)
    (B1 : (⟨1, ![512]⟩ : Shape).Idx → EReal) (W2 : (⟨2, ![128, 512]⟩ : Shape).Idx → EReal)
    (B2 : (⟨1, ![128]⟩ : Shape).Idx → EReal) (b : Fin 2048) (j : Fin 16) (d : Fin 128) : EReal :=
  ∑ i : Fin 16, ((∑ h : Fin 512, hid X W1 B1 b i j h * W2 (ix2 d h)) + B2 (ix1 d))

/-- The two arrangements agree at every entry, on all extended reals. -/
theorem viaSummedHidden_eq_sumOfOutputs (X : (⟨3, ![2048, 16, 128]⟩ : Shape).Idx → EReal)
    (W1 : (⟨2, ![512, 128]⟩ : Shape).Idx → EReal) (B1 : (⟨1, ![512]⟩ : Shape).Idx → EReal)
    (W2 : (⟨2, ![128, 512]⟩ : Shape).Idx → EReal) (B2 : (⟨1, ![128]⟩ : Shape).Idx → EReal)
    (b : Fin 2048) (j : Fin 16) (d : Fin 128) :
    viaSummedHidden X W1 B1 W2 B2 b j d = sumOfOutputs X W1 B1 W2 B2 b j d :=
  Cert.LibNonnegDistrib.layer_of_sum_eq_sum_of_layer (fun i h => hid X W1 B1 b i j h)
    (fun i h => hid_nonneg X W1 B1 b i j h) (fun h => W2 (ix2 d h)) (B2 (ix1 d))

/-- The word `0x41800000` is the float 16.0, the number of attribute rows. -/
theorem ofBits_sixteen : Ideal.ofBits .f32 0x41800000#32 = (((16 : ℕ) : ℝ) : EReal) := by
  simp [Ideal.ofBits, Ideal.ieee, -EReal.coe_mul]; norm_num

/-- A running sum from zero over sixteen terms, taken in order, is the sum over the sixteen positions. -/
theorem running_sum_sixteen {M : Type*} [AddCommMonoid M] (f : Fin 16 → M) :
    (((((((((((((((0 + f 0) + f 1) + f 2) + f 3) + f 4) + f 5) + f 6) + f 7) + f 8) + f 9) + f 10) + f 11) + f 12)
      + f 13) + f 14) + f 15 = ∑ i, f i := by
  simp only [Fin.sum_univ_castSucc, Fin.sum_univ_zero]
  rfl

end Cert.PairMlp

end
-- ==== Proof.KernelBlock.lean ====
/-
  The body's output block read at one entry, over the extended reals.

  With the floats read as extended reals (a change of float format the identity), the body's term is read at
  the entry `(p, j, d)` of its [128, 16, 128] output block — batch entry `p` of the point, attribute row `j`,
  feature `d`.  Row `r = 16 p + j` of the flattened [2048, ·] arrays is the pair space of `(p, j)`:

  * the hidden activations at slice offset `o`, at `(r, h)`, are
    `max (Σ_k (x[p,o,k] · x[p,j,k]) · w1[k,h] + b1[0,h], 0)`: the slice of row `o` broadcast along the rows, the
    entrywise product, the flattening, the product with the weights as a sum over the 128 features;
  * the accumulator after the sixteen steps is their sum over `o` (a running sum from zero);
  * the output is `Σ_h acc[r,h] · w2[h,d] + 16 · b2[0,d]`, laid back out as [128, 16, 128].
-/
import proofs.«123258_j9079560863790_2_alg».proof.Proof.KernelBody
import proofs.«123258_j9079560863790_2_alg».proof.Proof.LibPlainDot
import proofs.«123258_j9079560863790_2_alg».proof.Proof.PairMlp
import Idealize.ShloMosaic.Lib.ValueLayout
import Idealize.ShloMosaic.PureOps.Ideal.Laws

set_option maxRecDepth 16384

noncomputable section

namespace Cert.KernelIdeal.Block

open Cert.KernelIdeal Cert.KernelIdeal.Gen Cert.KernelIdeal.Body Idealize.ShloMosaic Idealize.ShloMosaic.ValueIdx
open Idealize.ShloMosaic.TcCoe

/-! ## Layout steps read at coordinates -/

/-- An `[a, 1, c]` array broadcast along its middle axis to `[a, b, c]` reads, at `(p, j, k)`, the operand at `(p, 0, k)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (j : Fin b) (k : Fin c) :
    broadcastTo ⟨3, ![a, b, c]⟩ v h (ix3 p j k) = v (ix3 p (0 : Fin 1) k) := by
  refine broadcastTo_apply v h (ix3 p j k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, c]` array flattened to `[n, c]` reads, at `(r, k)` with `r = b · p + j`, the operand at `(p, j, k)`. -/
theorem shapeCast_abc_nc_apply {α : Type} {a b c n : ℕ} (v : (⟨3, ![a, b, c]⟩ : Shape).Idx → α)
    (h : (⟨3, ![a, b, c]⟩ : Shape).ShapeCasts ⟨2, ![n, c]⟩) (p : Fin a) (j : Fin b) (k : Fin c) (r : Fin n)
    (hr : r.val = p.val * b + j.val) : shapeCast ⟨2, ![n, c]⟩ v h (ix2 r k) = v (ix3 p j k) :=
  shapeCast_apply v h _ _ (by
    rw [Shape.rowMajor_val_three, Shape.rowMajor_val_two]
    show (p.val * b + j.val) * c + k.val = r.val * c + k.val
    rw [hr])

/-- An `[n, c]` array laid out as `[a, b, c]` reads, at `(p, j, k)`, the operand at `(r, k)` with `r = b · p + j`. -/
theorem shapeCast_nc_abc_apply {α : Type} {a b c n : ℕ} (v : (⟨2, ![n, c]⟩ : Shape).Idx → α)
    (h : (⟨2, ![n, c]⟩ : Shape).ShapeCasts ⟨3, ![a, b, c]⟩) (p : Fin a) (j : Fin b) (k : Fin c) (r : Fin n)
    (hr : r.val = p.val * b + j.val) : shapeCast ⟨3, ![a, b, c]⟩ v h (ix3 p j k) = v (ix2 r k) :=
  shapeCast_apply v h _ _ (by
    rw [Shape.rowMajor_val_three, Shape.rowMajor_val_two]
    show r.val * c + k.val = (p.val * b + j.val) * c + k.val
    rw [hr])

/-! ## The two products, as sums over the contracted coordinate -/

/-- The first layer's product at `(r, h)`: the sum over the 128 features. -/
theorem matmul1_apply (l : FVec Ideal S2048x128 .bf16) (w : FVec Ideal S128x512 .bf16) (r : Fin 2048) (h : Fin 512) :
    matmul dot_S2048x128_S128x512_S2048x512_1_0_0_1_n_n none l w (constant S2048x512 .f32 0x00000000#32) (ix2 r h)
      = ∑ k : Fin 128, l (ix2 r k) * w (ix2 k h) :=
  Cert.LibPlainDot.matmul_zero_plain 2048 128 512 none l w (ix2 r h)

/-- The second layer's product at `(r, d)`: the sum over the 512 hidden units. -/
theorem matmul2_apply (l : FVec Ideal S2048x512 .bf16) (w : FVec Ideal S512x128 .bf16) (r : Fin 2048) (d : Fin 128) :
    matmul dot_S2048x512_S512x128_S2048x128_1_0_0_1_n_n none l w (constant S2048x128 .f32 0x00000000#32) (ix2 r d)
      = ∑ h : Fin 512, l (ix2 r h) * w (ix2 h d) :=
  Cert.LibPlainDot.matmul_zero_plain 2048 512 128 none l w (ix2 r d)

/-! ## The body's term at an entry -/

/-- The hidden activations at slice offset `o`, read at row `r = 16 p + j` and hidden unit `h`. -/
theorem hiddenOf_apply (o : Nat) (hs : S128x16x128.Slices ![0, o, 0] S128x1x128) (x : Vec Ideal S128x16x128 .f32)
    (w1 : FVec Ideal S128x512 .bf16) (b1 : FVec Ideal S1x512 .f32) (p : Fin 128) (j : Fin 16) (h : Fin 512)
    (r : Fin 2048) (hr : r.val = p.val * 16 + j.val) (oi : Fin 16) (ho : oi.val = o) :
    hiddenOf o hs x w1 b1 (ix2 r h)
      = max ((∑ k : Fin 128, (x (ix3 p oi k) * x (ix3 p j k)) * w1 (ix2 k h)) + b1 (ix2 (0 : Fin 1) h)) 0 := by
  unfold hiddenOf
  rw [maximumf_apply, addf_apply, broadcast_apply, broadcastTo_1b_ab_apply, matmul1_apply]
  have e : ∀ k : Fin 128,
      (truncf .bf16 (shapeCast S2048x128 (mulf (broadcastTo S128x16x128 (extractStridedSlice S128x1x128 ![0, o, 0] x hs)
        broadcasts_S128x1x128_S128x16x128) x) shapeCasts_S128x16x128_S2048x128) bitsLt_bf16_f32 : FVec Ideal S2048x128 .bf16)
        (ix2 r k) = x (ix3 p oi k) * x (ix3 p j k) := fun k => by
    rw [truncf_apply, shapeCast_abc_nc_apply _ _ p j k r hr, mulf_apply, broadcastTo_a1c_abc_apply,
      slice3_axis1_apply o x hs p (0 : Fin 1) k oi (by rw [ho]; rfl)]
  simp only [e, Ideal.ofBits_def, Ideal.ofBits_zero_f32]

/-- The accumulator after the sixteen steps, at row `r = 16 p + j` and hidden unit `h`: the sum over the sixteen
    first rows `i` of the pair `(i, j)`'s hidden activation. -/
theorem accumulated_apply (x : Vec Ideal S128x16x128 .f32) (w1 : FVec Ideal S128x512 .bf16) (b1 : FVec Ideal S1x512 .f32)
    (p : Fin 128) (j : Fin 16) (h : Fin 512) (r : Fin 2048) (hr : r.val = p.val * 16 + j.val) :
    accumulated x w1 b1 (ix2 r h)
      = ∑ i : Fin 16, max ((∑ k : Fin 128, (x (ix3 p i k) * x (ix3 p j k)) * w1 (ix2 k h)) + b1 (ix2 (0 : Fin 1) h)) 0 := by
  rw [← Cert.PairMlp.running_sum_sixteen]
  unfold accumulated zeroAcc
  simp only [addf_apply, broadcast_apply, Ideal.ofBits_def, Ideal.ofBits_zero_f32]
  rw [hiddenOf_apply 0 _ x w1 b1 p j h r hr 0 rfl,
    hiddenOf_apply 1 _ x w1 b1 p j h r hr 1 rfl,
    hiddenOf_apply 2 _ x w1 b1 p j h r hr 2 rfl,
    hiddenOf_apply 3 _ x w1 b1 p j h r hr 3 rfl,
    hiddenOf_apply 4 _ x w1 b1 p j h r hr 4 rfl,
    hiddenOf_apply 5 _ x w1 b1 p j h r hr 5 rfl,
    hiddenOf_apply 6 _ x w1 b1 p j h r hr 6 rfl,
    hiddenOf_apply 7 _ x w1 b1 p j h r hr 7 rfl,
    hiddenOf_apply 8 _ x w1 b1 p j h r hr 8 rfl,
    hiddenOf_apply 9 _ x w1 b1 p j h r hr 9 rfl,
    hiddenOf_apply 10 _ x w1 b1 p j h r hr 10 rfl,
    hiddenOf_apply 11 _ x w1 b1 p j h r hr 11 rfl,
    hiddenOf_apply 12 _ x w1 b1 p j h r hr 12 rfl,
    hiddenOf_apply 13 _ x w1 b1 p j h r hr 13 rfl,
    hiddenOf_apply 14 _ x w1 b1 p j h r hr 14 rfl,
    hiddenOf_apply 15 _ x w1 b1 p j h r hr 15 rfl]

/-- The body's output block at `(p, j, d)`: the second layer applied to the accumulated activations of row
    `r = 16 p + j`, plus sixteen times the bias. -/
theorem body_apply (x : Vec Ideal S128x16x128 .f32) (w1 : FVec Ideal S128x512 .bf16) (b1 : FVec Ideal S1x512 .f32)
    (w2 : FVec Ideal S512x128 .bf16) (b2 : FVec Ideal S1x128 .f32) (p : Fin 128) (j : Fin 16) (d : Fin 128) :
    k0_pay2 w2 b2 (accumulated x w1 b1) (ix3 p j d)
      = (∑ h : Fin 512, (∑ i : Fin 16, max ((∑ k : Fin 128, (x (ix3 p i k) * x (ix3 p j k)) * w1 (ix2 k h))
            + b1 (ix2 (0 : Fin 1) h)) 0) * w2 (ix2 h d))
        + (((16 : ℕ) : ℝ) : EReal) * b2 (ix2 (0 : Fin 1) d) := by
  have hr : (⟨p.val * 16 + j.val, by have := p.isLt; have := j.isLt; omega⟩ : Fin 2048).val = p.val * 16 + j.val := rfl
  unfold k0_pay2
  rw [shapeCast_nc_abc_apply _ _ p j d _ hr, addf_apply, broadcastTo_1b_ab_apply, mulf_apply, broadcast_apply,
    matmul2_apply]
  simp only [truncf_apply, accumulated_apply x w1 b1 p j _ _ hr, Ideal.ofBits_def, Cert.PairMlp.ofBits_sixteen]

end Cert.KernelIdeal.Block

end
-- ==== Proof.KernelInputs.lean ====
/-
  The blocks the body loads at a grid point, as entries of the argument arrays.

  The grid has sixteen points.  At point `t` the embeddings window hands the body rows `128 t … 128 t + 127` of
  the batch axis of `X`; the other four windows hand it, at every point, the whole of an array the host computed
  before the region: the first layer's weights transposed (`(k, h) ↦ W1[h, k]`, the change of float format the
  identity), its bias recast as a row, and the same for the second layer.
-/
import proofs.«123258_j9079560863790_2_alg».proof.Proof.Gen.KernelIdeal.Value
import Idealize.ShloMosaic.Lib.StableHlo.Run
import Idealize.ShloMosaic.Lib.ValueLayout

set_option maxRecDepth 16384

noncomputable section

namespace Cert.KernelIdeal.Inputs

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The five argument arrays on core `c`, as functions of their indices. -/
abbrev X (c : Dev nD) : S2048x16x128.Idx → EReal := m ((c : Thread nD τ).loc main_arg0)
abbrev W1 (c : Dev nD) : S512x128.Idx → EReal := m ((c : Thread nD τ).loc main_arg1)
abbrev B1 (c : Dev nD) : S512.Idx → EReal := m ((c : Thread nD τ).loc main_arg2)
abbrev W2 (c : Dev nD) : S128x512.Idx → EReal := m ((c : Thread nD τ).loc main_arg3)
abbrev B2 (c : Dev nD) : S128.Idx → EReal := m ((c : Thread nD τ).loc main_arg4)

/-- The printed index maps, decided over the sixteen points: the embeddings window and the output window move
    along the batch axis with the point; the four parameter windows stay at block (0, 0). -/
theorem idx_facts : ∀ t : Fin cfg0.N, win0_0.index t (0 : Fin 3) = t.val ∧ win0_0.index t (1 : Fin 3) = 0
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## What the region finds in the arrays the host computed -/

theorem V_w1 (c : Dev nD) : (V m c main_v3 : S128x512.Idx → EReal)
    = (truncf .bf16 (transpose S128x512 [1, 0] (W1 m c) transposes_S512x128_S128x512_1_0 : FVec Ideal S128x512 .f32)
        bitsLt_bf16_f32 : FVec Ideal S128x512 .bf16) := by
  dsimp only [Gen.V, Gen.hostOps0]; after_results

theorem V_b1 (c : Dev nD) : (V m c main_v0 : S1x512.Idx → EReal) = shapeCast S1x512 (B1 m c) shapeCasts_S512_S1x512 := by
  dsimp only [Gen.V, Gen.hostOps0]; after_results; rfl

theorem V_w2 (c : Dev nD) : (V m c main_v5 : S512x128.Idx → EReal)
    = (truncf .bf16 (transpose S512x128 [1, 0] (W2 m c) transposes_S128x512_S512x128_1_0 : FVec Ideal S512x128 .f32)
        bitsLt_bf16_f32 : FVec Ideal S512x128 .bf16) := by
  dsimp only [Gen.V, Gen.hostOps0]; after_results

theorem V_b2 (c : Dev nD) : (V m c main_v1 : S1x128.Idx → EReal) = shapeCast S1x128 (B2 m c) shapeCasts_S128_S1x128 := by
  dsimp only [Gen.V, Gen.hostOps0]; after_results; rfl

/-! ## The blocks at a point, at coordinates -/

/-- The embeddings block at point `t`, at `(p, j, k)`, is `X` at batch entry `128 t + p`. -/
theorem blk_x (c : Dev nD) (t : Fin cfg0.N) (p : Fin 128) (j : Fin 16) (k : Fin 128) (b : Fin 2048)
    (hb : b.val = t.val * 128 + p.val) :
    (iblk m c 0 t : Vec Ideal S128x16x128 .f32) (ix3 p j k) = X m c (ix3 b j k) := by
  obtain ⟨e0, e1, e2, -⟩ := idx_facts t
  unfold iblk
  rw [View.read_apply]
  show V m c main_arg0 _ = _
  rw [V_main_arg0]
  show X m c _ = X m c _
  congr 1
  funext a
  apply Fin.ext
  match a with
  | ⟨0, _⟩ => show win0_0.index t (0 : Fin 3) * 128 + 1 * p.val = b.val; rw [e0, hb]; omega
  | ⟨1, _⟩ => show win0_0.index t (1 : Fin 3) * 16 + 1 * j.val = j.val; rw [e1]; omega
  | ⟨2, _⟩ => show win0_0.index t (2 : Fin 3) * 128 + 1 * k.val = k.val; rw [e2]; omega

/-- The first layer's weights as the body loads them: at `(k, h)`, `W1[h, k]`. -/
theorem blk_w1 (c : Dev nD) (t : Fin cfg0.N) (k : Fin 128) (h : Fin 512) :
    (iblk m c 1 t : Vec Ideal S128x512 .bf16) (ix2 k h) = W1 m c (ix2 h k) := by
  obtain ⟨-, -, -, e0, e1, -⟩ := idx_facts t
  rw [← transpose_ix2_apply (W1 m c) transposes_S512x128_S128x512_1_0 k h]
  unfold iblk
  rw [View.read_apply]
  show V m c main_v3 _ = _
  rw [V_w1]
  show transpose S128x512 [1, 0] (W1 m c) transposes_S512x128_S128x512_1_0 _
    = transpose S128x512 [1, 0] (W1 m c) transposes_S512x128_S128x512_1_0 _
  congr 1
  funext a
  apply Fin.ext
  match a with
  | ⟨0, _⟩ => show win0_1.index t (0 : Fin 2) * 128 + 1 * k.val = k.val; rw [e0]; omega
  | ⟨1, _⟩ => show win0_1.index t (1 : Fin 2) * 512 + 1 * h.val = h.val; rw [e1]; omega

/-- The first layer's bias as the body loads it: a row, at `(0, h)`, `B1[h]`. -/
theorem blk_b1 (c : Dev nD) (t : Fin cfg0.N) (u : Fin 1) (h : Fin 512) :
    (iblk m c 2 t : Vec Ideal S1x512 .f32) (ix2 u h) = B1 m c (ix1 h) := by
  obtain ⟨-, -, -, -, -, e0, e1, -⟩ := idx_facts t
  rw [← shapeCast_a_1a_apply (B1 m c) shapeCasts_S512_S1x512 u h]
  unfold iblk
  rw [View.read_apply]
  show V m c main_v0 _ = _
  rw [V_b1]
  congr 1
  funext a
  apply Fin.ext
  match a with
  | ⟨0, _⟩ => show win0_2.index t (0 : Fin 2) * 1 + 1 * u.val = u.val; rw [e0]; omega
  | ⟨1, _⟩ => show win0_2.index t (1 : Fin 2) * 512 + 1 * h.val = h.val; rw [e1]; omega

/-- The second layer's weights as the body loads them: at `(h, d)`, `W2[d, h]`. -/
theorem blk_w2 (c : Dev nD) (t : Fin cfg0.N) (h : Fin 512) (d : Fin 128) :
    (iblk m c 3 t : Vec Ideal S512x128 .bf16) (ix2 h d) = W2 m c (ix2 d h) := by
  obtain ⟨-, -, -, -, -, -, -, e0, e1, -⟩ := idx_facts t
  rw [← transpose_ix2_apply (W2 m c) transposes_S128x512_S512x128_1_0 h d]
  unfold iblk
  rw [View.read_apply]
  show V m c main_v5 _ = _
  rw [V_w2]
  show transpose S512x128 [1, 0] (W2 m c) transposes_S128x512_S512x128_1_0 _
    = transpose S512x128 [1, 0] (W2 m c) transposes_S128x512_S512x128_1_0 _
  congr 1
  funext a
  apply Fin.ext
  match a with
  | ⟨0, _⟩ => show win0_3.index t (0 : Fin 2) * 512 + 1 * h.val = h.val; rw [e0]; omega
  | ⟨1, _⟩ => show win0_3.index t (1 : Fin 2) * 128 + 1 * d.val = d.val; rw [e1]; omega

/-- The second layer's bias as the body loads it: a row, at `(0, d)`, `B2[d]`. -/
theorem blk_b2 (c : Dev nD) (t : Fin cfg0.N) (u : Fin 1) (d : Fin 128) :
    (iblk m c 4 t : Vec Ideal S1x128 .f32) (ix2 u d) = B2 m c (ix1 d) := by
  obtain ⟨-, -, -, -, -, -, -, -, -, e0, e1, -⟩ := idx_facts t
  rw [← shapeCast_a_1a_apply (B2 m c) shapeCasts_S128_S1x128 u d]
  unfold iblk
  rw [View.read_apply]
  show V m c main_v1 _ = _
  rw [V_b2]
  congr 1
  funext a
  apply Fin.ext
  match a with
  | ⟨0, _⟩ => show win0_4.index t (0 : Fin 2) * 1 + 1 * u.val = u.val; rw [e0]; omega
  | ⟨1, _⟩ => show win0_4.index t (1 : Fin 2) * 128 + 1 * d.val = d.val; rw [e1]; omega

end Cert.KernelIdeal.Inputs

end
-- ==== Proof.KernelWhole.lean ====
/-
  The kernel's output array after the run, as one function of the argument arrays.

  At grid point `t` the body writes back rows `128 t … 128 t + 127` of the batch axis of the output.  Its
  output block at `(p, j, d)` is the second layer applied to the summed hidden activations of batch entry
  `128 t + p` — the blocks it loaded being the rows `128 t …` of `X` and the whole (transposed, recast)
  parameter arrays —, that is `viaSummedHidden` at `(128 t + p, j, d)`.  The sixteen blocks tile the batch
  axis (entry `b` is in the block of point `b / 128`), so the output array ends holding `viaSummedHidden` of the
  arguments at every entry.
-/
import proofs.«123258_j9079560863790_2_alg».proof.Proof.KernelBlock
import proofs.«123258_j9079560863790_2_alg».proof.Proof.KernelInputs

set_option maxRecDepth 16384

noncomputable section

namespace Cert.KernelIdeal.Whole

open Cert.KernelIdeal Cert.KernelIdeal.Gen Cert.KernelIdeal.Body Cert.KernelIdeal.Block Cert.KernelIdeal.Inputs
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output array's contents after the run: the kernel's arrangement of the perceptron, of the argument arrays. -/
def result (c : Dev nD) : S2048x16x128.Idx → EReal := fun q =>
  Cert.PairMlp.viaSummedHidden (X m c) (W1 m c) (B1 m c) (W2 m c) (B2 m c) (q 0) (q 1) (q 2)

/-- `result` at an index whose coordinates are `b`, `j`, `d` by value. -/
theorem result_at (c : Dev nD) (q : S2048x16x128.Idx) (b : Fin 2048) (j : Fin 16) (d : Fin 128)
    (h0 : (q 0).val = b.val) (h1 : (q 1).val = j.val) (h2 : (q 2).val = d.val) :
    result m c q = Cert.PairMlp.viaSummedHidden (X m c) (W1 m c) (B1 m c) (W2 m c) (B2 m c) b j d := by
  show Cert.PairMlp.viaSummedHidden (X m c) (W1 m c) (B1 m c) (W2 m c) (B2 m c) (q 0) (q 1) (q 2) = _
  have e0 : q 0 = b := Fin.ext h0
  have e1 : q 1 = j := Fin.ext h1
  have e2 : q 2 = d := Fin.ext h2
  rw [e0, e1, e2]

/-- The body's output block at point `t`, at `(p, j, d)`, is `viaSummedHidden` at batch entry `b = 128 t + p`. -/
theorem point_apply (c : Dev nD) (t : Fin cfg0.N) (p : Fin 128) (j : Fin 16) (d : Fin 128) (b : Fin 2048)
    (hb : b.val = t.val * 128 + p.val) :
    k0_pay2 (k0_pay4 (iblk m c 3 t)) (k0_pay6 (iblk m c 4 t))
        (accumulated (iblk m c 0 t) (k0_pay3 (iblk m c 1 t)) (k0_pay5 (iblk m c 2 t))) (ix3 p j d)
      = Cert.PairMlp.viaSummedHidden (X m c) (W1 m c) (B1 m c) (W2 m c) (B2 m c) b j d := by
  have e3 : k0_pay3 (iblk m c 1 t) = (iblk m c 1 t : Vec Ideal S128x512 .bf16) := shapeCast_self _ _
  have e4 : k0_pay4 (iblk m c 3 t) = (iblk m c 3 t : Vec Ideal S512x128 .bf16) := shapeCast_self _ _
  have e5 : k0_pay5 (iblk m c 2 t) = (iblk m c 2 t : Vec Ideal S1x512 .f32) := shapeCast_self _ _
  have e6 : k0_pay6 (iblk m c 4 t) = (iblk m c 4 t : Vec Ideal S1x128 .f32) := shapeCast_self _ _
  refine (body_apply (iblk m c 0 t) (k0_pay3 (iblk m c 1 t)) (k0_pay5 (iblk m c 2 t)) (k0_pay4 (iblk m c 3 t))
    (k0_pay6 (iblk m c 4 t)) p j d).trans ?_
  rw [e3, e4, e5, e6]
  unfold Cert.PairMlp.viaSummedHidden Cert.PairMlp.hid
  simp only [blk_x m c t p _ _ b hb, blk_w1 m c t, blk_b1 m c t, blk_w2 m c t, blk_b2 m c t]

/-- What point `t` writes back is block `t` of `result`. -/
theorem flushed_eq (c : Dev nD) (t : Fin cfg0.N) :
    (dats m 0 c).flushed 5 t = ((cfg0.win 5).blk t).view.read (Elt Ideal) (result m c) := by
  obtain ⟨-, -, -, -, -, -, -, -, -, -, -, e0, e1, e2⟩ := idx_facts t
  have hN : cfg0.N = 16 := N_0
  have ht : t.val < 16 := hN ▸ t.isLt
  rw [Cert.KernelIdeal.Value.flushed5_A m c t, Body.out_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)]
  funext y
  obtain ⟨p, j, d, rfl⟩ : ∃ (p : Fin 128) (j : Fin 16) (d : Fin 128), y = ix3 p j d := ⟨y 0, y 1, y 2, eq_ix3 y⟩
  show k0_pay2 (k0_pay4 (iblk m c 3 t)) (k0_pay6 (iblk m c 4 t))
      (accumulated (iblk m c 0 t) (k0_pay3 (iblk m c 1 t)) (k0_pay5 (iblk m c 2 t))) (ix3 p j d)
    = result m c (((cfg0.win 5).blk t).view.emb (ix3 p j d))
  refine (point_apply m c t p j d ⟨t.val * 128 + p.val, by have := p.isLt; omega⟩ rfl).trans
    (result_at m c _ ⟨t.val * 128 + p.val, by have := p.isLt; omega⟩ j d ?_ ?_ ?_).symm
  · show win0_5.index t (0 : Fin 3) * 128 + 1 * p.val = t.val * 128 + p.val
    rw [e0]; omega
  · show win0_5.index t (1 : Fin 3) * 16 + 1 * j.val = j.val
    rw [e1]; omega
  · show win0_5.index t (2 : Fin 3) * 128 + 1 * d.val = d.val
    rw [e2]; omega

/-- An index of the output array is in point `t`'s block iff each coordinate is in the block's range on its axis. -/
theorem mem_blk (t : Fin cfg0.N) (i : S2048x16x128.Idx) :
    i ∈ ((cfg0.win 5).blk t).view.set ↔ ∀ a : Fin 3, win0_5.index t a * S128x16x128.size a ≤ (i a).val
      ∧ (i a).val < win0_5.index t a * S128x16x128.size a + S128x16x128.size a := by
  show i ∈ ((View.whole main_v6).slice (win0_5.rect t)).set ↔ _
  rw [View.set_slice_whole, Rect.mem_set_unit]
  exact Iff.rfl

/-- Every entry of the output array is in some point's block: batch entry `b` in the block of point `b / 128`. -/
theorem cover (i : S2048x16x128.Idx) :
    ∃ t : Fin cfg0.N, (cfg0.win 5).flush t = true ∧ i ∈ ((cfg0.win 5).blk t).view.set := by
  have hN : cfg0.N = 16 := N_0
  have hi0 : (i 0).val < 2048 := (i 0).isLt
  have hi1 : (i 1).val < 16 := (i 1).isLt
  have hi2 : (i 2).val < 128 := (i 2).isLt
  let t : Fin cfg0.N := ⟨(i 0).val / 128, by rw [hN]; omega⟩
  obtain ⟨-, -, -, -, -, -, -, -, -, -, -, e0, e1, e2⟩ := idx_facts t
  have ht : t.val = (i 0).val / 128 := rfl
  refine ⟨t, flush0_5 t, ?_⟩
  rw [mem_blk]
  intro a
  match a with
  | ⟨0, _⟩ =>
    show win0_5.index t (0 : Fin 3) * 128 ≤ (i 0).val ∧ (i 0).val < win0_5.index t (0 : Fin 3) * 128 + 128
    rw [e0, ht]; omega
  | ⟨1, _⟩ =>
    show win0_5.index t (1 : Fin 3) * 16 ≤ (i 1).val ∧ (i 1).val < win0_5.index t (1 : Fin 3) * 16 + 16
    rw [e1]; omega
  | ⟨2, _⟩ =>
    show win0_5.index t (2 : Fin 3) * 128 ≤ (i 2).val ∧ (i 2).val < win0_5.index t (2 : Fin 3) * 128 + 128
    rw [e2]; omega

/-- The output array after the run is `result`. -/
theorem final (c : Dev nD) : (dats m 0 c).arrAt 5 cfg0.N = result m c :=
  (dats m 0 c).arrAt_eq_of_cover 5 (result m c) (fun t _ => flushed_eq m c t) cover

/-- The kernel's run: it terminates, the output array holds `result`, the arguments are unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference's result, read at one entry.

  The reference forms all pairwise products of attribute rows, applies the two-layer perceptron to every pair and
  sums over the first row of the pair.  Read one operation at a time at the entry `(b, j, d)`: the result is zero
  plus the sum over the first row `i` of `Σ_h hid b i j h · W2[d,h] + B2[d]`, where the pair tensor at
  `(b, i, j, k)` is `X[b,i,k] · X[b,j,k]`, the first product sums over the 128 features `k` against `W1[h,k]`, the
  bias `B1[h]` is broadcast, and the maximum is taken with a zero constant.  That is `sumOfOutputs`.
-/
import proofs.«123258_j9079560863790_2_alg».proof.Proof.Gen.ReferenceIdeal.Read
import proofs.«123258_j9079560863790_2_alg».proof.Proof.PairMlp

noncomputable section

namespace Cert.ReferenceIdeal.RefValue

open Cert.ReferenceIdeal Cert.ReferenceIdeal.Gen Cert.ReferenceIdeal.Read Idealize.ShloMosaic Idealize.ShloMosaic.ValueIdx

/-! ## The composed index maps, at coordinates -/

section
variable (b : Fin 2048) (i j : Fin 16) (d : Fin 128) (h : Fin 512) (k : Fin 128)

/-- The reduction over the first row inserts `i` as the second coordinate. -/
theorem idx_sum : idx_main_v14 (ix3 b j d) i = ix4 b i j d :=
  funext fun a => Fin.ext (by match a with | ⟨0, _⟩ => rfl | ⟨1, _⟩ => rfl | ⟨2, _⟩ => rfl | ⟨3, _⟩ => rfl)

/-- The second product reads the hidden layer at `(b, i, j, h)` and the weights at `(d, h)`. -/
theorem lidx_second : lidx_main_v10 (ix4 b i j d) h = ix4 b i j h :=
  funext fun a => Fin.ext (by match a with | ⟨0, _⟩ => rfl | ⟨1, _⟩ => rfl | ⟨2, _⟩ => rfl | ⟨3, _⟩ => rfl)
theorem ridx_second : ridx_main_v10 (ix4 b i j d) h = ix2 d h :=
  funext fun a => Fin.ext (by match a with | ⟨0, _⟩ => rfl | ⟨1, _⟩ => rfl)

/-- The second bias is read at `d`. -/
theorem idx_bias2 : idx_main_v11 (idx_main_v12 (ix4 b i j d)) = ix1 d :=
  funext fun a => Fin.ext (by match a with | ⟨0, _⟩ => rfl)

/-- The first product reads the pair tensor at `(b, i, j, k)` and the weights at `(h, k)`. -/
theorem lidx_first : lidx_main_v5 (ix4 b i j h) k = ix4 b i j k :=
  funext fun a => Fin.ext (by match a with | ⟨0, _⟩ => rfl | ⟨1, _⟩ => rfl | ⟨2, _⟩ => rfl | ⟨3, _⟩ => rfl)
theorem ridx_first : ridx_main_v5 (ix4 b i j h) k = ix2 h k :=
  funext fun a => Fin.ext (by match a with | ⟨0, _⟩ => rfl | ⟨1, _⟩ => rfl)

/-- The first bias is read at `h`. -/
theorem idx_bias1 : idx_main_v6 (idx_main_v7 (ix4 b i j h)) = ix1 h :=
  funext fun a => Fin.ext (by match a with | ⟨0, _⟩ => rfl)

/-- The pair tensor's two factors at `(b, i, j, k)` are the embeddings at `(b, i, k)` and at `(b, j, k)`. -/
theorem idx_left : idx_main_v0 (idx_main_v2 (ix4 b i j k)) = ix3 b i k :=
  funext fun a => Fin.ext (by match a with | ⟨0, _⟩ => rfl | ⟨1, _⟩ => rfl | ⟨2, _⟩ => rfl)
theorem idx_right : idx_main_v1 (idx_main_v3 (ix4 b i j k)) = ix3 b j k :=
  funext fun a => Fin.ext (by match a with | ⟨0, _⟩ => rfl | ⟨1, _⟩ => rfl | ⟨2, _⟩ => rfl)

end

/-! ## The stages, at coordinates -/

/-- The hidden layer at `(b, i, j, h)` is the hidden activation of the pair `(i, j)` of batch entry `b`. -/
theorem hidden_apply (x0 : (⟨S2048x16x128, .f32⟩ : BufTy).Contents (Elt Ideal)) (x1 : (⟨S512x128, .f32⟩ : BufTy).Contents (Elt Ideal)) (x2 : (⟨S512, .f32⟩ : BufTy).Contents (Elt Ideal))
    (b : Fin 2048) (i j : Fin 16) (h : Fin 512) :
    val_main_v9 (F := Ideal) x0 x1 x2 (ix4 b i j h) = Cert.PairMlp.hid x0 x1 x2 b i j h := by
  rw [val_main_v9_apply, val_main_v8_apply, val_main_v5_apply, val_main_v7_apply, val_main_v6_apply,
    val_main_call0_v0_apply, val_main_call0_cst_apply, idx_bias1]
  unfold Cert.PairMlp.hid
  rw [Ideal.maximumf_def, Ideal.addf_def, Ideal.ofBits_def, Ideal.ofBits_zero_f32]
  refine congrArg (fun s => max (s + x2 (ix1 h)) 0) (Finset.sum_congr rfl fun k _ => ?_)
  rw [lidx_first, ridx_first, val_main_v4_apply, val_main_v2_apply, val_main_v3_apply, val_main_v0_apply,
    val_main_v1_apply, idx_left, idx_right, Ideal.mulf_def]

/-- The reference's result at `(b, j, d)`: the sum over the first row of the second layer's outputs. -/
theorem result_apply (x0 : (⟨S2048x16x128, .f32⟩ : BufTy).Contents (Elt Ideal)) (x1 : (⟨S512x128, .f32⟩ : BufTy).Contents (Elt Ideal)) (x2 : (⟨S512, .f32⟩ : BufTy).Contents (Elt Ideal)) (x3 : (⟨S128x512, .f32⟩ : BufTy).Contents (Elt Ideal)) (x4 : (⟨S128, .f32⟩ : BufTy).Contents (Elt Ideal))
    (b : Fin 2048) (j : Fin 16) (d : Fin 128) :
    val_main_v14 (F := Ideal) x0 x1 x2 x3 x4 (ix3 b j d) = Cert.PairMlp.sumOfOutputs x0 x1 x2 x3 x4 b j d := by
  rw [val_main_v14_apply, val_main_cst_apply, Ideal.ofBits_def, Ideal.ofBits_zero_f32, zero_add]
  unfold Cert.PairMlp.sumOfOutputs
  refine Finset.sum_congr rfl fun i _ => ?_
  rw [idx_sum, val_main_v13_apply, val_main_v10_apply, val_main_v12_apply, val_main_v11_apply, idx_bias2,
    Ideal.addf_def]
  refine congrArg (· + x4 (ix1 d)) (Finset.sum_congr rfl fun h _ => ?_)
  rw [lidx_second, ridx_second, hidden_apply]

end Cert.ReferenceIdeal.RefValue

end
-- ==== Proof.lean ====
/-
  A two-layer perceptron applied to every pair of attribute rows and summed over the first row of the pair:
  the kernel against its reference, over the extended reals.

  For embeddings `X[b, a, k]`, a first layer `W1`, `B1` and a second layer `W2`, `B2`, write
  `hid b i j h = max (Σ_k (X[b,i,k] · X[b,j,k]) · W1[h,k] + B1[h], 0)`.  The reference computes, at `(b, j, d)`,
  `Σ_i (Σ_h hid b i j h · W2[d,h] + B2[d])`.  The kernel, for each block of 128 batch entries, accumulates
  `Σ_i hid b i j h` in a scratch buffer over sixteen unrolled steps and applies the second layer once:
  `Σ_h (Σ_i hid b i j h) · W2[d,h] + 16 · B2[d]`.  Read over the extended reals (a change of float format the
  identity, every operation exact) the two agree for ALL inputs: the hidden activations are maxima with zero,
  hence nonnegative, and multiplication distributes over sums of nonnegative extended reals whatever the other
  factor is; and sixteen copies of `B2[d]` add up to `16 · B2[d]` even when `B2[d]` is infinite.  So the
  precondition (finite inputs) is never opened.

  The three frames are the generated ones (the reference's is its generated run with the result dropped); the
  idealization rewrote no operation, so `preserves` is `True`; the algebraic claim sets the kernel's run, whose
  output array is `viaSummedHidden` of the arguments, beside the reference's run, whose result is
  `sumOfOutputs` of the same arguments.
-/
import proofs.«123258_j9079560863790_2_alg».proof.Defs
import proofs.«123258_j9079560863790_2_alg».proof.Proof.Gen.Kernel
import proofs.«123258_j9079560863790_2_alg».proof.Proof.Gen.Kernel.Skeleton
import proofs.«123258_j9079560863790_2_alg».proof.Proof.Gen.Kernel.Launch
import proofs.«123258_j9079560863790_2_alg».proof.Proof.Gen.Kernel.Points
import proofs.«123258_j9079560863790_2_alg».proof.Proof.Gen.Kernel.Frame
import proofs.«123258_j9079560863790_2_alg».proof.Proof.Gen.KernelIdeal
import proofs.«123258_j9079560863790_2_alg».proof.Proof.Gen.KernelIdeal.Skeleton
import proofs.«123258_j9079560863790_2_alg».proof.Proof.Gen.KernelIdeal.Launch
import proofs.«123258_j9079560863790_2_alg».proof.Proof.Gen.KernelIdeal.Points
import proofs.«123258_j9079560863790_2_alg».proof.Proof.Gen.KernelIdeal.Frame
import proofs.«123258_j9079560863790_2_alg».proof.Proof.Gen.ReferenceIdeal
import proofs.«123258_j9079560863790_2_alg».proof.Proof.Gen.Pre_finite_inputs
import proofs.«123258_j9079560863790_2_alg».proof.Proof.Gen.KernelIdeal.Value
import proofs.«123258_j9079560863790_2_alg».proof.Proof.Gen.ReferenceIdeal.Run
import proofs.«123258_j9079560863790_2_alg».proof.Proof.Gen.ReferenceIdeal.Read
import proofs.«123258_j9079560863790_2_alg».proof.Proof.KernelWhole
import proofs.«123258_j9079560863790_2_alg».proof.Proof.RefValue
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: the idealized kernel is the kernel's own text read over the extended reals. -/
theorem preserves : Cert.preserves_Kernel_KernelIdeal := trivial

/-- The reference's result of the same arguments is the kernel's output array: entry by entry, the sum of the
    second layer's outputs is the second layer of the summed activations. -/
theorem reference_eq_result (m : (ℓ : Loc Cert.KernelIdeal.nD Cert.KernelIdeal.τ Cert.KernelIdeal.sig) → Buf (Elt Ideal) ℓ)
    (c : Dev Cert.KernelIdeal.nD) :
    Cert.ReferenceIdeal.Read.val_main_v14 (F := Ideal) (Cert.KernelIdeal.Inputs.X m c) (Cert.KernelIdeal.Inputs.W1 m c)
      (Cert.KernelIdeal.Inputs.B1 m c) (Cert.KernelIdeal.Inputs.W2 m c) (Cert.KernelIdeal.Inputs.B2 m c)
      = Cert.KernelIdeal.Whole.result m c := by
  funext q
  obtain ⟨b, j, d, rfl⟩ : ∃ (b : Fin 2048) (j : Fin 16) (d : Fin 128), q = ix3 b j d := ⟨q 0, q 1, q 2, eq_ix3 q⟩
  rw [Cert.ReferenceIdeal.RefValue.result_apply]
  exact (Cert.PairMlp.viaSummedHidden_eq_sumOfOutputs _ _ _ _ _ b j d).symm

theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact reference_eq_result m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
